-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13_1)) (v1 : (c : Dev Cert.KernelIdeal.nD) → Buf (Elt Ideal) ((c.tc : Thread Cert.KernelIdeal.nD Cert.KernelIdeal.τ).loc Cert.KernelIdeal.main_v13_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_1) = v0 c
          ∧ r.2.mem ((c.tc : Thread Cert.KernelIdeal.nD Cert.KernelIdeal.τ).loc Cert.KernelIdeal.main_v13_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x16x128 : Shape := ⟨4, ![2, 2048, 16, 128]⟩
abbrev S_ : Shape := ⟨0, ![]⟩

class Facts : Prop where
  bcast_S_S2x2048x16x128 : S_.BroadcastsInDim S2x2048x16x128 (![] : Fin 0 → Fin S2x2048x16x128.rank)
  reducesTo_S2x2048x16x128_S_d0_1_2_3 : S2x2048x16x128.ReducesTo [0, 1, 2, 3] S_
  h_S_ : 0 < S_.numel

variable [Facts]

def fn {F : FTy → Type} [FloatOps F] (main_arg0 : FVec F S2x2048x16x128 .f32) (main_arg1 : FVec F S2x2048x16x128 .f32) (main_arg2 : FVec F S2x2048x16x128 .f32) : IVec S_ 1 :=
  let main_v0 : FVec F S2x2048x16x128 .f32 := Host.absf main_arg0
  let main_cst : FVec F S_ .f32 := constant S_ .f32 0x7F800000#32
  let main_v1 : FVec F S2x2048x16x128 .f32 := broadcastInDim S2x2048x16x128 ![] bcast_S_S2x2048x16x128 main_cst
  let main_v2 : IVec S2x2048x16x128 1 := cmpf .olt main_v0 main_v1
  let main_c : IVec S_ 1 := constantI S_ 1 1#1
  let main_v3 : IVec S_ 1 := (fun x v => Host.reduce IntOp.andi x v reducesTo_S2x2048x16x128_S_d0_1_2_3 h_S_) main_v2 main_c
  let main_v4 : FVec F S2x2048x16x128 .f32 := Host.absf main_arg1
  let main_cst_0 : FVec F S_ .f32 := constant S_ .f32 0x7F800000#32
  let main_v5 : FVec F S2x2048x16x128 .f32 := broadcastInDim S2x2048x16x128 ![] bcast_S_S2x2048x16x128 main_cst_0
  let main_v6 : IVec S2x2048x16x128 1 := cmpf .olt main_v4 main_v5
  let main_c_1 : IVec S_ 1 := constantI S_ 1 1#1
  let main_v7 : IVec S_ 1 := (fun x v => Host.reduce IntOp.andi x v reducesTo_S2x2048x16x128_S_d0_1_2_3 h_S_) main_v6 main_c_1
  let main_v8 : IVec S_ 1 := andi main_v3 main_v7
  let main_v9 : FVec F S2x2048x16x128 .f32 := Host.absf main_arg2
  let main_cst_2 : FVec F S_ .f32 := constant S_ .f32 0x7F800000#32
  let main_v10 : FVec F S2x2048x16x128 .f32 := broadcastInDim S2x2048x16x128 ![] bcast_S_S2x2048x16x128 main_cst_2
  let main_v11 : IVec S2x2048x16x128 1 := cmpf .olt main_v9 main_v10
  let main_c_3 : IVec S_ 1 := constantI S_ 1 1#1
  let main_v12 : IVec S_ 1 := (fun x v => Host.reduce IntOp.andi x v reducesTo_S2x2048x16x128_S_d0_1_2_3 h_S_) main_v11 main_c_3
  let main_v13 : IVec S_ 1 := andi main_v8 main_v12
  main_v13
-- ==== Kernel.lean ====
abbrev S2x2048x16x128 : Shape := ⟨4, ![2, 2048, 16, 128]⟩
abbrev S2x2048x2048 : Shape := ⟨3, ![2, 2048, 2048]⟩
abbrev S_ : Shape := ⟨0, ![]⟩
abbrev S2x16x2048x2048 : Shape := ⟨4, ![2, 16, 2048, 2048]⟩
abbrev S1x2048x128 : Shape := ⟨3, ![1, 2048, 128]⟩
abbrev S1x1x2048x2048 : Shape := ⟨4, ![1, 1, 2048, 2048]⟩
abbrev S2048x128 : Shape := ⟨2, ![2048, 128]⟩
abbrev S2048x2048 : Shape := ⟨2, ![2048, 2048]⟩
abbrev S2048 : Shape := ⟨1, ![2048]⟩
abbrev S2048x1 : Shape := ⟨2, ![2048, 1]⟩

abbrev nBuf : Space → Nat
  | .hbm => 19
  | .vmem => 14
  | .smem => 0
  | _ => 0

abbrev bufTy : (tb : Table) → Fin (tcTables nBuf tb) → BufTy
  | .hbm, ⟨0, _⟩ => ⟨S2x2048x16x128, .f32⟩
  | .hbm, ⟨1, _⟩ => ⟨S2x2048x16x128, .f32⟩
  | .hbm, ⟨2, _⟩ => ⟨S2x2048x16x128, .f32⟩
  | .hbm, ⟨3, _⟩ => ⟨S2x2048x2048, .f32⟩
  | .hbm, ⟨4, _⟩ => ⟨S_, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .hbm, ⟨9, _⟩ => ⟨S2x2048x2048, .bf16⟩
  | .hbm, ⟨10, _⟩ => ⟨S2x2048x2048, .f32⟩
  | .hbm, ⟨11, _⟩ => ⟨S2x2048x2048, .f32⟩
  | .hbm, ⟨12, _⟩ => ⟨S2x2048x2048, .bf16⟩
  | .hbm, ⟨13, _⟩ => ⟨S2x2048x2048, .bf16⟩
  | .hbm, ⟨14, _⟩ => ⟨S2x2048x2048, .f32⟩
  | .hbm, ⟨15, _⟩ => ⟨S2x2048x2048, .f32⟩
  | .hbm, ⟨16, _⟩ => ⟨S2x2048x2048, .bf16⟩
  | .hbm, ⟨17, _⟩ => ⟨S2x16x2048x2048, .f32⟩
  | .hbm, ⟨18, _⟩ => ⟨S2x2048x2048, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .f32⟩
  | .local _ .vmem, ⟨9, _⟩ => ⟨S1x2048x128, .f32⟩
  | .local _ .vmem, ⟨10, _⟩ => ⟨S1x1x2048x2048, .f32⟩
  | .local _ .vmem, ⟨11, _⟩ => ⟨S1x1x2048x2048, .f32⟩
  | .local _ .vmem, ⟨12, _⟩ => ⟨S1x2048x128, .f32⟩
  | .local _ .vmem, ⟨13, _⟩ => ⟨S1x2048x128, .f32⟩
  | _, _ => ⟨S2x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x2048x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  shapeCasts_S2x2048x16x128_S2x2048x2048 : S2x2048x16x128.ShapeCasts S2x2048x2048
  bcast_S_S2x2048x2048 : S_.BroadcastsInDim S2x2048x2048 (![] : Fin 0 → Fin S2x2048x2048.rank)
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x1x2048x2048_S1x1x2048x2048_0_0_0_0 : ∀ a, (![0, 0, 0, 0] : Fin 4 → Nat) a + S1x1x2048x2048.size a ≤ S1x1x2048x2048.size a
  h_S1x1x2048x2048 : 0 < S1x1x2048x2048.numel
  shapeCasts_S1x1x2048x2048_S2048x2048 : S1x1x2048x2048.ShapeCasts S2048x2048
  shapeCasts_S2048x2048_S1x1x2048x2048 : S2048x2048.ShapeCasts S1x1x2048x2048
  reduces_S2048x2048_S2048 : S2048x2048.Reduces [1] S2048
  shapeCasts_S2048_S2048x1 : S2048.ShapeCasts S2048x1
  broadcasts_S2048x1_S2048x2048 : S2048x1.Broadcasts S2048x2048
  broadcasts_S2048x1_S2048x128 : S2048x1.Broadcasts S2048x128
  shapeCasts_S2048x128_S1x2048x128 : S2048x128.ShapeCasts S1x2048x128
  dot_S2048x128_S2048x128_S2048x2048_1_1_0_0_n_n_wf : DotDims.WF S2048x128 S2048x128 S2048x2048 [1] [1] [0] [0] [] []
  dot_S2048x2048_S2048x128_S2048x128_1_0_0_1_n_n_wf : DotDims.WF S2048x2048 S2048x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S2x2048x2048.size a
  hwx0_0 : ∀ i : grid0.Coords, EltTy.bits .bf16 = 32 ∨ (Rect.block (s := S2x2048x2048) S1x2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S2x2048x2048.size a
  hwx0_1 : ∀ i : grid0.Coords, EltTy.bits .bf16 = 32 ∨ (Rect.block (s := S2x2048x2048) S1x2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S2x2048x2048.size a
  hwx0_2 : ∀ i : grid0.Coords, EltTy.bits .bf16 = 32 ∨ (Rect.block (s := S2x2048x2048) S1x2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S2x2048x2048.size a
  hwx0_3 : ∀ i : grid0.Coords, EltTy.bits .bf16 = 32 ∨ (Rect.block (s := S2x2048x2048) S1x2048x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S2x2048x2048.size a
  hwx0_4 : ∀ i : grid0.Coords, EltTy.bits .f32 = 32 ∨ (Rect.block (s := S2x2048x2048) S1x2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048x2048.size a ≤ S2x16x2048x2048.size a
  hwx0_5 : ∀ i : grid0.Coords, EltTy.bits .f32 = 32 ∨ (Rect.block (s := S2x16x2048x2048) S1x1x2048x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x128.size a ≤ S2x2048x2048.size a
  hwx0_6 : ∀ i : grid0.Coords, EltTy.bits .f32 = 32 ∨ (Rect.block (s := S2x2048x2048) S1x2048x128.size (cc0_transform_6 i) (hinb0_6 i)).WholeWords (EltTy.packing .f32)

variable [Facts₀]

def dot_S2048x128_S2048x128_S2048x2048_1_1_0_0_n_n : DotDims S2048x128 S2048x128 S2048x2048 where
  lhsContracting := [1]
  rhsContracting := [1]
  lhsNonContracting := [0]
  rhsNonContracting := [0]
  lhsBatch := []
  rhsBatch := []
  wf := dot_S2048x128_S2048x128_S2048x2048_1_1_0_0_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

abbrev win0_0 : Pipeline.Window sig grid0 :=
  Pipeline.Window.ofSpec (Memref.whole main_v5) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_0) S1x1x2048x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13_1) S1x2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x2048x16x128 : Shape := ⟨4, ![2, 2048, 16, 128]⟩
abbrev S2x16x2048x128 : Shape := ⟨4, ![2, 16, 2048, 128]⟩
abbrev S_ : Shape := ⟨0, ![]⟩
abbrev S2x16x128x2048 : Shape := ⟨4, ![2, 16, 128, 2048]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x2048x2048 : Shape := ⟨3, ![2, 2048, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2x2048x16x128, .f32⟩
  | .hbm, ⟨1, _⟩ => ⟨S2x2048x16x128, .f32⟩
  | .hbm, ⟨2, _⟩ => ⟨S2x2048x16x128, .f32⟩
  | .hbm, ⟨3, _⟩ => ⟨S2x16x2048x128, .f32⟩
  | .hbm, ⟨4, _⟩ => ⟨S_, .f32⟩
  | .hbm, ⟨5, _⟩ => ⟨S2x16x2048x128, .f32⟩
  | .hbm, ⟨6, _⟩ => ⟨S2x16x2048x128, .f32⟩
  | .hbm, ⟨7, _⟩ => ⟨S2x16x2048x128, .f32⟩
  | .hbm, ⟨8, _⟩ => ⟨S2x16x128x2048, .f32⟩
  | .hbm, ⟨9, _⟩ => ⟨S2x16x2048x2048, .f32⟩
  | .hbm, ⟨10, _⟩ => ⟨S2x16x2048x2048, .f32⟩
  | .hbm, ⟨11, _⟩ => ⟨S_, .f32⟩
  | .hbm, ⟨12, _⟩ => ⟨S2x16x2048, .f32⟩
  | .hbm, ⟨13, _⟩ => ⟨S_, .f32⟩
  | .hbm, ⟨14, _⟩ => ⟨S2x16x2048, .f32⟩
  | .hbm, ⟨15, _⟩ => ⟨S2x16x2048, .f32⟩
  | .hbm, ⟨16, _⟩ => ⟨S2x16x2048x1, .f32⟩
  | .hbm, ⟨17, _⟩ => ⟨S2x16x2048x2048, .f32⟩
  | .hbm, ⟨18, _⟩ => ⟨S2x16x2048x2048, .f32⟩
  | .hbm, ⟨19, _⟩ => ⟨S2x16x2048x2048, .f32⟩
  | .hbm, ⟨20, _⟩ => ⟨S_, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x128, .f32⟩
  | .hbm, ⟨26, _⟩ => ⟨S2x2048x16x128, .f32⟩
  | .hbm, ⟨27, _⟩ => ⟨S2x2048x2048, .f32⟩
  | _, _ => ⟨S2x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  transposes_S2x2048x16x128_S2x16x2048x128_0_2_1_3 : S2x2048x16x128.Transposes [0, 2, 1, 3] S2x16x2048x128
  bcast_S_S2x16x2048x128 : S_.BroadcastsInDim S2x16x2048x128 (![] : Fin 0 → Fin S2x16x2048x128.rank)
  transposes_S2x2048x16x128_S2x16x128x2048_0_2_3_1 : S2x2048x16x128.Transposes [0, 2, 3, 1] S2x16x128x2048
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  dot_S2x16x2048x128_S2x16x128x2048_S2x16x2048x2048_3_2_2_3_01_01_wf : DotDims.WF S2x16x2048x128 S2x16x128x2048 S2x16x2048x2048 [3] [2] [2] [3] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x128x2048_S2x16x2048x2048_3_2_2_3_01_01 : DotDims S2x16x2048x128 S2x16x128x2048 S2x16x2048x2048 where
  lhsContracting := [3]
  rhsContracting := [2]
  lhsNonContracting := [2]
  rhsNonContracting := [3]
  lhsBatch := [0, 1]
  rhsBatch := [0, 1]
  wf := dot_S2x16x2048x128_S2x16x128x2048_S2x16x2048x2048_3_2_2_3_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.SoftmaxLaw.lean ====
import Idealize.ShloMosaic.PureOps.Ideal
noncomputable section
namespace Cert.Attn
open Idealize.ShloMosaic

/-! Extended reals that are images of real numbers, and the algebra of a softmax-weighted
    sum over them: dividing the weighted sum by the normaliser equals the sum of the
    normalised weights times the values. -/

/-- An extended real that is the image of a real number (neither infinity). -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

private theorem IsReal.add {x y : EReal} (hx : IsReal x) (hy : IsReal y) : IsReal (x + y) := by
  obtain ⟨a, rfl⟩ := hx
  obtain ⟨b, rfl⟩ := hy
  exact ⟨a + b, (EReal.coe_add a b).symm⟩

private theorem IsReal.zero : IsReal 0 := ⟨0, EReal.coe_zero.symm⟩

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

/-- On a real, subtraction of a number from itself is zero (false at the infinities). -/
theorem IsReal.sub_self {x : EReal} (hx : IsReal x) : x - x = 0 := by
  obtain ⟨a, rfl⟩ := hx
  rw [← EReal.coe_sub, _root_.sub_self, EReal.coe_zero]

/-- Sign 1, exponent field all ones, significand 0: minus infinity. -/
theorem ofBits_neg_inf : Ideal.ofBits .f32 0xFF800000#32 = (⊥ : EReal) := by
  show Ideal.ieee 8 23 (0xFF800000#32) = ⊥
  unfold Ideal.ieee
  dsimp only
  have h1 : ((0xFF800000#32 : BitVec 32).extractLsb' 23 8).toNat = 2 ^ 8 - 1 := by decide
  have h2 : ((0xFF800000#32 : BitVec 32).extractLsb' 0 23).toNat = 0 := by decide
  have h3 : ((0xFF800000#32 : BitVec 32).extractLsb' (8 + 23) 1 == 1#1) = true := by decide
  rw [if_pos h1, if_pos h2, h3]
  rfl

/-- Exponent field 130, neither 0 nor 255: a normal number, hence a real. -/
theorem ofBits_scale_real : IsReal (Ideal.ofBits .f32 0x413504F3#32) := by
  show IsReal (Ideal.ieee 8 23 (0x413504F3#32))
  unfold Ideal.ieee
  dsimp only
  have h1 : ¬ ((0x413504F3#32 : BitVec 32).extractLsb' 23 8).toNat = 2 ^ 8 - 1 := by decide
  have h2 : ¬ ((0x413504F3#32 : BitVec 32).extractLsb' 23 8).toNat = 0 := by decide
  rw [if_neg h1, if_neg h2]
  exact ⟨_, rfl⟩

/-- A dot product plus two correction terms that vanish on reals is the dot product. -/
theorem split_dot {n : ℕ} (a b : Fin n → EReal) (ha : ∀ d, IsReal (a d)) (hb : ∀ d, IsReal (b d)) :
    (∑ d, a d * b d) + (∑ d, a d * (b d - b d)) + (∑ d, (a d - a d) * b d) = ∑ d, a d * b d := by
  have h1 : ∀ d, a d * (b d - b d) = 0 := fun d => by rw [IsReal.sub_self (hb d), mul_zero]
  have h2 : ∀ d, (a d - a d) * b d = 0 := fun d => by rw [IsReal.sub_self (ha d), zero_mul]
  simp only [h1, h2, Finset.sum_const_zero, add_zero]

/-- The running maximum, started at minus infinity, of a nonempty family of reals is a real:
    it is at least the first entry (so not minus infinity) and below plus infinity. -/
theorem fold_max_real {n : ℕ} (hn : 0 < n) (f : Fin n → EReal) (hf : ∀ j, IsReal (f j)) :
    IsReal ((Finset.univ : Finset (Fin n)).fold max (⊥ : EReal) f) := by
  have hlt : (Finset.univ : Finset (Fin n)).fold max (⊥ : EReal) f < ⊤ := by
    rw [Finset.fold_max_lt]
    refine ⟨bot_lt_top, fun j _ => ?_⟩
    obtain ⟨r, hr⟩ := hf j
    rw [hr]
    exact EReal.coe_lt_top r
  have hge : f ⟨0, hn⟩ ≤ (Finset.univ : Finset (Fin n)).fold max (⊥ : EReal) f := by
    rw [Finset.le_fold_max]
    exact Or.inr ⟨⟨0, hn⟩, Finset.mem_univ _, le_rfl⟩
  obtain ⟨r0, hr0⟩ := hf ⟨0, hn⟩
  rw [hr0] at hge
  generalize (Finset.univ : Finset (Fin n)).fold max (⊥ : EReal) f = M at hlt hge
  induction M using EReal.rec with
  | bot => exact absurd hge (not_le.mpr (EReal.bot_lt_coe r0))
  | coe r => exact ⟨r, rfl⟩
  | top => exact absurd hlt (lt_irrefl _)

/-- The running maximum dominates its starting value. -/
theorem max_bot_fold {n : ℕ} (b : EReal) (f : Fin n → EReal) :
    max b ((Finset.univ : Finset (Fin n)).fold max b f)
      = (Finset.univ : Finset (Fin n)).fold max b f := by
  apply max_eq_right
  rw [Finset.le_fold_max]
  exact Or.inl le_rfl

/-- A finite sum of coerced reals is the coercion of the real sum. -/
private theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- With real scores, a real shift and real values, the normaliser is a positive real, so
    division by it is multiplication by its reciprocal and distributes over the sum. -/
theorem softmax_law {n : ℕ} (hn : 0 < n) (x v : Fin n → EReal) (m : EReal)
    (hx : ∀ j, IsReal (x j)) (hm : IsReal m) (hv : ∀ j, IsReal (v j)) :
    Ideal.div (∑ j, Ideal.exp (x j - m) * v j) (∑ j, Ideal.exp (x j - m))
      = ∑ j, Ideal.div (Ideal.exp (x j - m)) (∑ j', Ideal.exp (x j' - m)) * v j := by
  choose xr hxr using hx
  choose vr hvr using hv
  obtain ⟨mr, rfl⟩ := hm
  have he : ∀ j, Ideal.exp (x j - (mr : EReal)) = ((Real.exp (xr j - mr) : ℝ) : EReal) := fun j => by
    rw [hxr j, ← EReal.coe_sub, Ideal.exp_coe]
  have hpos : 0 < ∑ j : Fin n, Real.exp (xr j - mr) :=
    Finset.sum_pos (fun j _ => Real.exp_pos _) ⟨⟨0, hn⟩, Finset.mem_univ _⟩
  simp only [he, hvr, coe_sum, Ideal.div_coe hpos.ne', ← EReal.coe_mul]
  congr 1
  rw [Finset.sum_mul]
  refine Finset.sum_congr rfl (fun j _ => ?_)
  ring

end Cert.Attn
end
-- ==== Proof.Finite.lean ====
import proofs.«125984_g20246475833907_fold_wed_m_552_22_alg».proof.Pre_finite_inputs
import proofs.«125984_g20246475833907_fold_wed_m_552_22_alg».proof.Proof.Gen.Pre_finite_inputs
import proofs.«125984_g20246475833907_fold_wed_m_552_22_alg».proof.Proof.SoftmaxLaw
import Idealize.ShloMosaic.Lib.ReduceAll
import Idealize.ShloMosaic.Lib.ValueIdx
import Idealize.ShloMosaic.PureOps.Ideal.Laws
noncomputable section
namespace Cert.Attn
open Idealize.ShloMosaic

/-! From the precondition "every entry of each input has absolute value below plus infinity"
    to "every entry of each input is a real": an extended real `x` with `max x (-x) < ⊤` is
    neither infinity. -/

/-- Sign 0, exponent field all ones, significand 0: plus infinity. -/
theorem ofBits_pos_inf : Ideal.ofBits .f32 0x7F800000#32 = (⊤ : EReal) := by
  show Ideal.ieee 8 23 (0x7F800000#32) = ⊤
  unfold Ideal.ieee
  dsimp only
  have h1 : ((0x7F800000#32 : BitVec 32).extractLsb' 23 8).toNat = 2 ^ 8 - 1 := by decide
  have h2 : ((0x7F800000#32 : BitVec 32).extractLsb' 0 23).toNat = 0 := by decide
  have h3 : ((0x7F800000#32 : BitVec 32).extractLsb' (8 + 23) 1 == 1#1) = false := by decide
  rw [if_pos h1, if_pos h2, h3]
  rfl

/-- An extended real whose absolute value `max x (-x)` is below plus infinity is a real:
    at minus infinity the negation is plus infinity, at plus infinity the number itself is. -/
private theorem real_of_abs_lt_top {x : EReal} (h : max x (-x) < ⊤) : IsReal x := by
  induction x using EReal.rec with
  | bot =>
    rw [EReal.neg_bot, max_eq_right bot_le] at h
    exact absurd h (lt_irrefl _)
  | coe r => exact ⟨r, rfl⟩
  | top =>
    rw [max_eq_left le_top] at h
    exact absurd h (lt_irrefl _)

/-- The ordered "less than" comparison of extended reals answers the bit 1 only when it holds. -/
private theorem lt_of_cmp_olt {a b : EReal} (h : Ideal.cmp .olt a b = 1#1) : a < b := by
  by_contra hn
  have h0 : Ideal.cmp .olt a b = 0#1 := by simp [Ideal.cmp, hn]
  rw [h0] at h
  exact absurd h (by decide)

/-- The rank-0 shape has one index. -/
private instance : Subsingleton (Shape.Idx ⟨0, ![]⟩) := ⟨fun _ _ => funext fun d => d.elim0⟩

/-- If the conjunction over all entries of "|x| < c" is 1 and `c` is plus infinity everywhere,
    every entry of `x` is a real. -/
private theorem real_of_all_lt {s u : Shape} {axes : List (Fin s.rank)}
    (x c : FVec Ideal s .f32) (hc : ∀ i, c i = (⊤ : EReal))
    (init : IVec u 1) (hr : s.ReducesTo axes ⟨0, ![]⟩) (hu : 0 < u.numel)
    (h : Host.reduce IntOp.andi (cmpf .olt (Host.absf x) c) init hr hu ValueIdx.ix0 = 1#1) :
    ∀ i, IsReal (x i) := by
  intro i
  have hi : cmpf .olt (Host.absf x) c i = 1#1 :=
    Host.reduce_andi_all _ init hr hu ValueIdx.ix0 h i
  have hi' : Ideal.cmp .olt (max (x i) (-(x i))) (c i) = 1#1 := hi
  rw [hc i] at hi'
  exact real_of_abs_lt_top (lt_of_cmp_olt hi')

/-- The precondition holds (its one bit is 1) only if every entry of the three inputs is a real. -/
theorem real_of_pre [Cert.Pre_finite_inputs.Facts] (q k v : FVec Ideal Cert.Pre_finite_inputs.S2x2048x16x128 .f32)
    (h : Cert.Pre_finite_inputs.fn (F := Ideal) q k v = (fun _ => 1#1)) :
    (∀ i, IsReal (q i)) ∧ (∀ i, IsReal (k i)) ∧ (∀ i, IsReal (v i)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨real_of_all_lt q _ ?_ _ _ _ h1, real_of_all_lt k _ ?_ _ _ _ h2, real_of_all_lt v _ ?_ _ _ _ h3⟩
  · intro i; exact ofBits_pos_inf
  · intro i; exact ofBits_pos_inf
  · intro i; exact ofBits_pos_inf

end Cert.Attn
end
-- ==== Proof.LibKeepdims.lean ====
/-
  General lemmas: the "keepdims" column forms read at an index given by coordinates.

  A reduction over the last axis of an `[a, b]` array leaves one value per row, an `[a]` vector; to combine it with the
  array again it is viewed as a column `[a, 1]` and the column is broadcast along the rows to `[a, b]`.  Read at
  `(i, j)`, the column view is the vector at `i` and the broadcast column is the column at `(i, 0)`: so the two together
  read the vector at the ROW coordinate, whatever the column coordinate.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Together: a per-row vector, viewed as a column and broadcast along the rows, reads at `(i, j)` the vector at `i`. -/
theorem keepdims_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

/-- The row form beside it: a vector `[b]` viewed as one row `[1, b]` and broadcast over `a` rows reads at `(i, j)` the
    vector at the COLUMN coordinate `j` (a bias added to every row). -/
theorem rowdims_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) := by
  refine (broadcastTo_apply _ h2 (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · exact shapeCast_apply x h1 _ _ (by
      rw [Shape.rowMajor_val_two, Shape.rowMajor_val_one]
      show j.val = 0 * b + j.val
      rw [Nat.zero_mul, Nat.zero_add])

end Cert.LibKeepdims
-- ==== Proof.Spec.lean ====
/-
  The mathematics both programs compute, over the three [2, 2048, 16, 128] inputs (batch, position, head, feature).

  For batch `b` and head `h` the score of query position `r` against key position `j` is the sum over the 128 features of
  (query entry times the scale constant) times the key entry.  The first result is the absolute value of the score; the second
  is, for each query position, the softmax of its score row (exponentials of the row shifted by its maximum, over their sum)
  applied to the value entries of that head, laid out with head and feature merged into one axis of 2048.
-/
import Idealize.ShloMosaic.PureOps.Ideal
import Idealize.ShloMosaic.Lib.ValueIdx

noncomputable section

namespace Cert.Attn

open Idealize.ShloMosaic Idealize.ShloMosaic.ValueIdx

/-- The maximum of a row, folded from the f32 pattern of minus infinity. -/
def rowMax (x : Fin 2048 → EReal) : EReal :=
  (Finset.univ : Finset (Fin 2048)).fold max (Ideal.ofBits .f32 0xFF800000#32) x

/-- One output entry, normalised LAST: the exponentials of the row shifted by its maximum, multiplied into a column of values
    and summed, then divided by the sum of the exponentials. -/
def attnRow (x v : Fin 2048 → EReal) : EReal :=
  Ideal.div (∑ k : Fin 2048, Ideal.exp (x k - rowMax x) * v k) (∑ k : Fin 2048, Ideal.exp (x k - rowMax x))

/-- One output entry, normalised FIRST: each exponential divided by the sum of the exponentials, then multiplied into the
    column of values and summed. -/
def softRow (x v : Fin 2048 → EReal) : EReal :=
  ∑ k : Fin 2048, Ideal.div (Ideal.exp (x k - rowMax x)) (∑ k' : Fin 2048, Ideal.exp (x k' - rowMax x)) * v k

/-- A [2, 2048, 16, 128] input at the ideal values. -/
abbrev Arr4 : Type := (⟨4, ![2, 2048, 16, 128]⟩ : Shape).Idx → EReal

/-- The index `(b, s, 128 h + d)` of a [2, 2048, 2048] array: position `s`, feature `d` of head `h`. -/
def flat (b : Fin 2) (s : Fin 2048) (h : Fin 16) (d : Fin 128) : (⟨3, ![2, 2048, 2048]⟩ : Shape).Idx :=
  ix3 b s ⟨h.val * 128 + d.val, by have := h.isLt; have := d.isLt; omega⟩

/-- The scale constant both programs multiply the queries by (the f32 nearest the square root of 128). -/
def scale : EReal := Ideal.ofBits .f32 0x413504F3#32

/-- The score of batch `b`, head `h`: query position `r` against key position `j`. -/
def X (q k : Arr4) (b : Fin 2) (h : Fin 16) (r j : Fin 2048) : EReal :=
  ∑ d : Fin 128, (q (ix4 b r h d) * scale) * k (ix4 b j h d)

/-- The first result, [2, 16, 2048, 2048]: the absolute value of the score. -/
def Spec5 (q k : Arr4) : (⟨4, ![2, 16, 2048, 2048]⟩ : Shape).Idx → EReal := fun i =>
  FloatOps.absf (F := Ideal) (φ := .f32)
    (X q k ⟨(i 0).val, (i 0).isLt⟩ ⟨(i 1).val, (i 1).isLt⟩ ⟨(i 2).val, (i 2).isLt⟩ ⟨(i 3).val, (i 3).isLt⟩)

/-- The second result, [2, 2048, 2048]: entry `(b, s, n)` is the softmax-weighted sum of the values of head `n / 128`,
    feature `n % 128`, for query position `s`. -/
def Spec6 (q k v : Arr4) : (⟨3, ![2, 2048, 2048]⟩ : Shape).Idx → EReal := fun i =>
  softRow
    (fun j => X q k ⟨(i 0).val, (i 0).isLt⟩ ⟨(i 2).val / 128, by have h2 : (i 2).val < 2048 := (i 2).isLt; omega⟩ ⟨(i 1).val, (i 1).isLt⟩ j)
    (fun j => v (ix4 (⟨(i 0).val, (i 0).isLt⟩ : Fin 2) j (⟨(i 2).val / 128, by have h2 : (i 2).val < 2048 := (i 2).isLt; omega⟩ : Fin 16)
      (⟨(i 2).val % 128, Nat.mod_lt _ (by decide)⟩ : Fin 128)))

end Cert.Attn

end
-- ==== Proof.Payload.lean ====
/-
  The kernel body's arithmetic read at an index, at the ideal values.

  One grid point handles one (batch, head) pair: its blocks are the [2048, 128] panels of the scaled queries (a leading part
  and a remainder), of the keys (likewise) and of the values.  The body forms the [2048, 2048] score panel as the sum of
  three products (leading·leading + leading·remainder + remainder·leading, each a contraction over the 128 features),
  stores its absolute value, and then for each query row takes the row maximum, exponentiates the shifted row, sums it,
  multiplies the exponentials into the value panel and divides by the row sum.
-/
import proofs.«125984_g20246475833907_fold_wed_m_552_22_alg».proof.Proof.Gen.KernelIdeal.Skeleton
import proofs.«125984_g20246475833907_fold_wed_m_552_22_alg».proof.Proof.LibKeepdims
import proofs.«125984_g20246475833907_fold_wed_m_552_22_alg».proof.Proof.Spec
import Idealize.ShloMosaic.PureOps.Ideal.Laws
import Idealize.ShloMosaic.Lib.ValueIdx
import Idealize.ShloMosaic.Lib.Pipeline.Value

noncomputable section

namespace Cert.Attn

open Cert.KernelIdeal Cert.KernelIdeal.Gen Idealize.ShloMosaic Idealize.ShloMosaic.ValueIdx

/-- The three-product score of query row `i` against key row `j`. -/
def score3 (P0 P1 P2 P3 : Vec Ideal S1x2048x128 .bf16) (i j : Fin 2048) : EReal :=
  ((∑ d : Fin 128, (P0 (ix3 (0 : Fin 1) i d) : EReal) * (P2 (ix3 (0 : Fin 1) j d) : EReal))
    + (∑ d : Fin 128, (P0 (ix3 (0 : Fin 1) i d) : EReal) * (P3 (ix3 (0 : Fin 1) j d) : EReal)))
    + (∑ d : Fin 128, (P1 (ix3 (0 : Fin 1) i d) : EReal) * (P2 (ix3 (0 : Fin 1) j d) : EReal))

/-- A [1, 2048, 128] block viewed as a [2048, 128] panel reads the block at the same row and feature. -/
theorem panel_apply {α : Type} (P : S1x2048x128.Idx → α) (i : Fin 2048) (d : Fin 128) :
    shapeCast S2048x128 P shapeCasts_S1x2048x128_S2048x128 (ix2 i d) = P (ix3 (0 : Fin 1) i d) :=
  shapeCast_apply P _ _ _ (by
    rw [Shape.rowMajor_val_three, Shape.rowMajor_val_two]
    show ((0 : Fin 1).val * 2048 + i.val) * 128 + d.val = i.val * 128 + d.val
    simp)

theorem lhsNT_0 (i : S2048x2048.Idx) (q : dot_S2048x128_S2048x128_S2048x2048_1_1_0_0_n_n.contr.Idx) :
    (dot_S2048x128_S2048x128_S2048x2048_1_1_0_0_n_n.lhsIdx i q 0).val = (i 0).val := by
  unfold DotDims.lhsIdx
  rw [dif_neg (show ¬(0 : Fin S2048x128.rank) ∈ dot_S2048x128_S2048x128_S2048x2048_1_1_0_0_n_n.lhsBatch by decide), dif_pos (show (0 : Fin S2048x128.rank) ∈ dot_S2048x128_S2048x128_S2048x2048_1_1_0_0_n_n.lhsNonContracting by decide)]
  rfl
theorem rhsNT_0 (i : S2048x2048.Idx) (q : dot_S2048x128_S2048x128_S2048x2048_1_1_0_0_n_n.contr.Idx) :
    (dot_S2048x128_S2048x128_S2048x2048_1_1_0_0_n_n.rhsIdx i q 0).val = (i 1).val := by
  unfold DotDims.rhsIdx
  rw [dif_neg (show ¬(0 : Fin S2048x128.rank) ∈ dot_S2048x128_S2048x128_S2048x2048_1_1_0_0_n_n.rhsBatch by decide), dif_pos (show (0 : Fin S2048x128.rank) ∈ dot_S2048x128_S2048x128_S2048x2048_1_1_0_0_n_n.rhsNonContracting by decide)]
  rfl

/-- The product of a [2048, 128] panel with the transpose of another, into the zero accumulator, at `(i, j)`: the sum over the
    128 features of row `i` of the first times row `j` of the second. -/
theorem matmulNT_apply (l r : FVec Ideal S2048x128 .bf16) (i j : Fin 2048) :
    matmul dot_S2048x128_S2048x128_S2048x2048_1_1_0_0_n_n none l r (constant S2048x2048 .f32 0x00000000#32) (ix2 i j)
      = ∑ d : Fin 128, l (ix2 i d) * r (ix2 j d) := by
  simp only [matmul]
  rw [Ideal.matmul_constant_zero_apply, ← Equiv.sum_comp (contrEquiv1 dot_S2048x128_S2048x128_S2048x2048_1_1_0_0_n_n 128 rfl rfl).symm]
  refine Finset.sum_congr rfl fun k _ => ?_
  have hk := contrEquiv1_symm_val dot_S2048x128_S2048x128_S2048x2048_1_1_0_0_n_n 128 rfl rfl k
  have el : dot_S2048x128_S2048x128_S2048x2048_1_1_0_0_n_n.lhsIdx (ix2 i j) ((contrEquiv1 dot_S2048x128_S2048x128_S2048x2048_1_1_0_0_n_n 128 rfl rfl).symm k) = ix2 i k := funext fun a => Fin.ext (by
    match a with
    | ⟨0, _⟩ => exact lhsNT_0 _ _
    | ⟨1, _⟩ => exact (dot_S2048x128_S2048x128_S2048x2048_1_1_0_0_n_n.lhsIdx_val_of_single rfl _ _).trans hk)
  have er : dot_S2048x128_S2048x128_S2048x2048_1_1_0_0_n_n.rhsIdx (ix2 i j) ((contrEquiv1 dot_S2048x128_S2048x128_S2048x2048_1_1_0_0_n_n 128 rfl rfl).symm k) = ix2 j k := funext fun a => Fin.ext (by
    match a with
    | ⟨0, _⟩ => exact rhsNT_0 _ _
    | ⟨1, _⟩ => exact (dot_S2048x128_S2048x128_S2048x2048_1_1_0_0_n_n.rhsIdx_val_of_single rfl _ _).trans hk)
  rw [el, er]

theorem lhsNN_0 (i : S2048x128.Idx) (q : dot_S2048x2048_S2048x128_S2048x128_1_0_0_1_n_n.contr.Idx) :
    (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
theorem rhsNN_1 (i : S2048x128.Idx) (q : dot_S2048x2048_S2048x128_S2048x128_1_0_0_1_n_n.contr.Idx) :
    (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- The product of a [2048, 2048] panel with a [2048, 128] panel, into the zero accumulator, at `(i, d)`: the sum over the 2048
    keys of entry `(i, k)` of the first times entry `(k, d)` of the second. -/
theorem matmulNN_apply (l : FVec Ideal S2048x2048 .f32) (r : FVec Ideal S2048x128 .f32) (i : Fin 2048) (d : Fin 128) :
    matmul dot_S2048x2048_S2048x128_S2048x128_1_0_0_1_n_n none l r (constant S2048x128 .f32 0x00000000#32) (ix2 i d)
      = ∑ k : Fin 2048, l (ix2 i k) * r (ix2 k d) := by
  simp only [matmul]
  rw [Ideal.matmul_constant_zero_apply, ← Equiv.sum_comp (contrEquiv1 dot_S2048x2048_S2048x128_S2048x128_1_0_0_1_n_n 2048 rfl rfl).symm]
  refine Finset.sum_congr rfl fun k _ => ?_
  have hk := contrEquiv1_symm_val dot_S2048x2048_S2048x128_S2048x128_1_0_0_1_n_n 2048 rfl rfl k
  have el : dot_S2048x2048_S2048x128_S2048x128_1_0_0_1_n_n.lhsIdx (ix2 i d) ((contrEquiv1 dot_S2048x2048_S2048x128_S2048x128_1_0_0_1_n_n 2048 rfl rfl).symm k) = ix2 i k := funext fun a => Fin.ext (by
    match a with
    | ⟨0, _⟩ => exact lhsNN_0 _ _
    | ⟨1, _⟩ => exact (dot_S2048x2048_S2048x128_S2048x128_1_0_0_1_n_n.lhsIdx_val_of_single rfl _ _).trans hk)
  have er : dot_S2048x2048_S2048x128_S2048x128_1_0_0_1_n_n.rhsIdx (ix2 i d) ((contrEquiv1 dot_S2048x2048_S2048x128_S2048x128_1_0_0_1_n_n 2048 rfl rfl).symm k) = ix2 k d := funext fun a => Fin.ext (by
    match a with
    | ⟨0, _⟩ => exact (dot_S2048x2048_S2048x128_S2048x128_1_0_0_1_n_n.rhsIdx_val_of_single rfl _ _).trans hk
    | ⟨1, _⟩ => exact rhsNN_1 _ _)
  rw [el, er]

/-- The score panel the body computes, at `(i, j)`, is the three-product score of the loaded blocks. -/
theorem pay2_apply (P0 P1 P2 P3 : Vec Ideal S1x2048x128 .bf16) (i j : Fin 2048) :
    k0_pay2 (F := Ideal) P0 P1 P2 P3 (ix2 i j) = score3 P0 P1 P2 P3 i j := by
  unfold k0_pay2 score3
  show (_ + _) + _ = _
  refine congrArg₂ (· + ·) (congrArg₂ (· + ·) ?_ ?_) ?_
  · refine (matmulNT_apply _ _ i j).trans (Finset.sum_congr rfl fun d _ => ?_)
    exact congrArg₂ (· * ·) (panel_apply P0 i d) (panel_apply P2 j d)
  · refine (matmulNT_apply _ _ i j).trans (Finset.sum_congr rfl fun d _ => ?_)
    exact congrArg₂ (· * ·) (panel_apply P0 i d) (panel_apply P3 j d)
  · refine (matmulNT_apply _ _ i j).trans (Finset.sum_congr rfl fun d _ => ?_)
    exact congrArg₂ (· * ·) (panel_apply P1 i d) (panel_apply P2 j d)

/-- The rest of the body after the score panel `X`, over the value panel `W`. -/
def tail (X : FVec Ideal S2048x2048 .f32) (W : FVec Ideal S2048x128 .f32) : FVec Ideal S2048x128 .f32 :=
  divf
    (matmul dot_S2048x2048_S2048x128_S2048x128_1_0_0_1_n_n none
      (exp (subf X (broadcastTo S2048x2048 (shapeCast S2048x1 (multiReduction .maximumf [1] S2048 X 0xFF800000#32 reduces_S2048x2048_S2048 (.inl rfl) rfl) shapeCasts_S2048_S2048x1) broadcasts_S2048x1_S2048x2048)))
      W (constant S2048x128 .f32 0x00000000#32))
    (broadcastTo S2048x128 (shapeCast S2048x1 (multiReduction .add [1] S2048
      (exp (subf X (broadcastTo S2048x2048 (shapeCast S2048x1 (multiReduction .maximumf [1] S2048 X 0xFF800000#32 reduces_S2048x2048_S2048 (.inl rfl) rfl) shapeCasts_S2048_S2048x1) broadcasts_S2048x1_S2048x2048)))
      0x00000000#32 reduces_S2048x2048_S2048 (.inl rfl) rfl) shapeCasts_S2048_S2048x1) broadcasts_S2048x1_S2048x128)

theorem pay4_eq_tail (P0 P1 P2 P3 : Vec Ideal S1x2048x128 .bf16) (P4 : Vec Ideal S1x2048x128 .f32) :
    k0_pay4 (F := Ideal) P0 P1 P2 P3 P4 = tail (k0_pay2 (F := Ideal) P0 P1 P2 P3) (shapeCast S2048x128 P4 shapeCasts_S1x2048x128_S2048x128) := rfl

/-- Inserting the key coordinate `k` into the row index `i` gives `(i, k)`. -/
theorem lift_row (i k : Fin 2048) : reduces_S2048x2048_S2048.lift (ix1 i) k = ix2 i k :=
  funext fun a => Fin.ext (by match a with | ⟨0, _⟩ => rfl | ⟨1, _⟩ => rfl)

/-- The row maximum, kept as a column and broadcast back along the row, reads the fold of `max` over the row. -/
theorem rowMax_apply (X : FVec Ideal S2048x2048 .f32) (i k : Fin 2048) :
    broadcastTo S2048x2048 (shapeCast S2048x1 (multiReduction .maximumf [1] S2048 X 0xFF800000#32 reduces_S2048x2048_S2048 (.inl rfl) rfl) shapeCasts_S2048_S2048x1) broadcasts_S2048x1_S2048x2048 (ix2 i k)
      = rowMax (fun k => X (ix2 i k)) := by
  refine (Cert.LibKeepdims.keepdims_apply _ shapeCasts_S2048_S2048x1 broadcasts_S2048x1_S2048x2048 i k).trans ?_
  refine (Ideal.multiReduction_maximumf_single X 0xFF800000#32 reduces_S2048x2048_S2048 (.inl rfl) rfl (ix1 i)).trans ?_
  unfold rowMax
  refine congrArg (fun f => (Finset.univ : Finset (Fin 2048)).fold max (Ideal.ofBits .f32 0xFF800000#32) f) ?_
  funext k'
  exact congrArg X (lift_row i k')

/-- The shifted, exponentiated score panel at `(i, k)`. -/
theorem expShift_apply (X : FVec Ideal S2048x2048 .f32) (i k : Fin 2048) :
    exp (subf X (broadcastTo S2048x2048 (shapeCast S2048x1 (multiReduction .maximumf [1] S2048 X 0xFF800000#32 reduces_S2048x2048_S2048 (.inl rfl) rfl) shapeCasts_S2048_S2048x1) broadcasts_S2048x1_S2048x2048)) (ix2 i k)
      = Ideal.exp (X (ix2 i k) - rowMax (fun k => X (ix2 i k))) := by
  show Ideal.exp (X (ix2 i k) - _) = _
  exact congrArg (fun m => Ideal.exp (X (ix2 i k) - m)) (rowMax_apply X i k)

/-- The body after the score panel, at `(i, d)`, is the attention row of score row `i` against value column `d`. -/
theorem tail_apply (X : FVec Ideal S2048x2048 .f32) (W : FVec Ideal S2048x128 .f32) (i : Fin 2048) (d : Fin 128) :
    tail X W (ix2 i d) = attnRow (fun k => X (ix2 i k)) (fun k => W (ix2 k d)) := by
  unfold tail attnRow
  show Ideal.div _ _ = _
  refine congrArg₂ Ideal.div ?_ ?_
  · refine (matmulNN_apply _ W i d).trans (Finset.sum_congr rfl fun k _ => ?_)
    exact congrArg (· * W (ix2 k d)) (expShift_apply X i k)
  · refine (Cert.LibKeepdims.keepdims_apply _ shapeCasts_S2048_S2048x1 broadcasts_S2048x1_S2048x128 i d).trans ?_
    refine (Ideal.multiReduction_add_single _ 0x00000000#32 reduces_S2048x2048_S2048 (.inl rfl) rfl (ix1 i)).trans ?_
    refine Finset.sum_congr rfl fun k _ => ?_
    exact (congrArg _ (lift_row i k)).trans (expShift_apply X i k)

/-- The second payload at `(i, d)`: the attention row of the three-product scores of query row `i` against feature `d` of the
    value block. -/
theorem pay4_apply (P0 P1 P2 P3 : Vec Ideal S1x2048x128 .bf16) (P4 : Vec Ideal S1x2048x128 .f32) (i : Fin 2048) (d : Fin 128) :
    k0_pay4 (F := Ideal) P0 P1 P2 P3 P4 (ix2 i d)
      = attnRow (fun k => score3 P0 P1 P2 P3 i k) (fun k => (P4 (ix3 (0 : Fin 1) k d) : EReal)) := by
  rw [pay4_eq_tail]
  refine (tail_apply _ _ i d).trans ?_
  refine congrArg₂ attnRow (funext fun k => pay2_apply P0 P1 P2 P3 i k) (funext fun k => panel_apply P4 k d)

/-- The stored score block at `(0, 0, i, j)`: the absolute value of the three-product score. -/
theorem pay3_apply (P0 P1 P2 P3 : Vec Ideal S1x2048x128 .bf16) (u v : Fin 1) (i j : Fin 2048) :
    k0_pay3 (F := Ideal) P0 P1 P2 P3 (ix4 u v i j) = FloatOps.absf (F := Ideal) (φ := .f32) (score3 P0 P1 P2 P3 i j) := by
  unfold k0_pay3
  refine (shapeCast_apply _ shapeCasts_S2048x2048_S1x1x2048x2048 (ix4 u v i j) (ix2 i j) (by
    have hu := u.isLt
    have hv := v.isLt
    rw [Shape.rowMajor_val_two, Shape.rowMajor_val_four]
    show i.val * 2048 + j.val = ((u.val * 1 + v.val) * 2048 + i.val) * 2048 + j.val
    omega)).trans ?_
  show FloatOps.absf (k0_pay2 (F := Ideal) P0 P1 P2 P3 (ix2 i j)) = _
  exact congrArg _ (pay2_apply P0 P1 P2 P3 i j)

/-- The stored output block at `(0, i, d)` is the [2048, 128] result at `(i, d)`. -/
theorem pay1_apply (Y : FVec Ideal S2048x128 .f32) (u : Fin 1) (i : Fin 2048) (d : Fin 128) :
    k0_pay1 (F := Ideal) Y (ix3 u i d) = Y (ix2 i d) := by
  unfold k0_pay1
  exact shapeCast_apply Y shapeCasts_S2048x128_S1x2048x128 (ix3 u i d) (ix2 i d) (by
    have hu := u.isLt
    rw [Shape.rowMajor_val_two, Shape.rowMajor_val_three]
    show i.val * 128 + d.val = (u.val * 2048 + i.val) * 128 + d.val
    omega)

end Cert.Attn

end
-- ==== Proof.Blocks.lean ====
/-
  From blocks to arrays.

  The grid has one point per (batch, head) pair.  At the point of batch `b` and head `h` every input window's block is the
  [2048, 128] panel `(b, ·, 128 h + ·)` of its [2, 2048, 2048] array; the score window's block is the slab `(b, h, ·, ·)` of
  the [2, 16, 2048, 2048] result and the output window's block the panel `(b, ·, 128 h + ·)` of the [2, 2048, 2048] result.
  The blocks of each result tile it, so each result array is one function of the five window arrays, index by index.
-/
import proofs.«125984_g20246475833907_fold_wed_m_552_22_alg».proof.Proof.Gen.KernelIdeal.Value
import proofs.«125984_g20246475833907_fold_wed_m_552_22_alg».proof.Proof.Payload

noncomputable section

namespace Cert.Attn

open Cert.KernelIdeal Cert.KernelIdeal.Gen Idealize.ShloMosaic Idealize.ShloMosaic.TcCoe Idealize.SL.Sem Idealize.ShloMosaic.ValueIdx
open Idealize.ShloMosaic.Pipeline (Dat)

/-- The (b, h) panel of a [2, 2048, 2048] array, as a [1, 2048, 128] block. -/
def panel {α : Type} (A : S2x2048x2048.Idx → α) (b : Fin 2) (h : Fin 16) : S1x2048x128.Idx → α :=
  fun y => A (flat b ⟨(y 1).val, (y 1).isLt⟩ h ⟨(y 2).val, (y 2).isLt⟩)

/-- The three-product score of batch `b`, head `h`: query position `i` against key position `j`. -/
def scoreOf (A0 A1 A2 A3 : S2x2048x2048.Idx → EReal) (b : Fin 2) (h : Fin 16) (i j : Fin 2048) : EReal :=
  score3 (panel A0 b h) (panel A1 b h) (panel A2 b h) (panel A3 b h) i j

/-- The score result as a function of the four query / key arrays. -/
def G5 (A0 A1 A2 A3 : S2x2048x2048.Idx → EReal) : S2x16x2048x2048.Idx → EReal := fun i =>
  FloatOps.absf (F := Ideal) (φ := .f32)
    (scoreOf A0 A1 A2 A3 ⟨(i 0).val, (i 0).isLt⟩ ⟨(i 1).val, (i 1).isLt⟩ ⟨(i 2).val, (i 2).isLt⟩ ⟨(i 3).val, (i 3).isLt⟩)

/-- The attention output of batch `b`, head `h`, query position `s`, feature `d`. -/
def outOf (A0 A1 A2 A3 A4 : S2x2048x2048.Idx → EReal) (b : Fin 2) (h : Fin 16) (s : Fin 2048) (d : Fin 128) : EReal :=
  attnRow (fun k => scoreOf A0 A1 A2 A3 b h s k) (fun k => A4 (flat b k h d))

/-- The output result as a function of the five window arrays: entry `(b, s, n)` belongs to head `n / 128`, feature `n % 128`. -/
def G6 (A0 A1 A2 A3 A4 : S2x2048x2048.Idx → EReal) : S2x2048x2048.Idx → EReal := fun i =>
  outOf A0 A1 A2 A3 A4 ⟨(i 0).val, (i 0).isLt⟩ ⟨(i 2).val / 128, by have h2 : (i 2).val < 2048 := (i 2).isLt; omega⟩
    ⟨(i 1).val, (i 1).isLt⟩ ⟨(i 2).val % 128, Nat.mod_lt _ (by decide)⟩

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What the body stores in the score block, over panels of arbitrary arrays, is the slab of `G5`. -/
theorem block5_eq (A0 A1 A2 A3 : S2x2048x2048.Idx → EReal) (b : Fin 2) (h : Fin 16) (y : S1x1x2048x2048.Idx) (k : S2x16x2048x2048.Idx)
    (hk0 : (k 0).val = b.val) (hk1 : (k 1).val = h.val) (hk2 : (k 2).val = (y 2).val) (hk3 : (k 3).val = (y 3).val) :
    k0_pay3 (F := Ideal) (panel A0 b h) (panel A1 b h) (panel A2 b h) (panel A3 b h) y = G5 A0 A1 A2 A3 k := by
  rw [eq_ix4 y]
  refine (pay3_apply _ _ _ _ (y 0) (y 1) (y 2) (y 3)).trans ?_
  unfold G5 scoreOf
  have e0 : (⟨(k 0).val, (k 0).isLt⟩ : Fin 2) = b := Fin.ext hk0
  have e1 : (⟨(k 1).val, (k 1).isLt⟩ : Fin 16) = h := Fin.ext hk1
  have e2 : (⟨(k 2).val, (k 2).isLt⟩ : Fin 2048) = y 2 := Fin.ext hk2
  have e3 : (⟨(k 3).val, (k 3).isLt⟩ : Fin 2048) = y 3 := Fin.ext hk3
  rw [e0, e1, e2, e3]

/-- What the body stores in the output block, over panels of arbitrary arrays, is the panel of `G6`. -/
theorem block6_eq (A0 A1 A2 A3 A4 : S2x2048x2048.Idx → EReal) (b : Fin 2) (h : Fin 16) (y : S1x2048x128.Idx) (k : S2x2048x2048.Idx)
    (hk0 : (k 0).val = b.val) (hk1 : (k 1).val = (y 1).val) (hk2 : (k 2).val = h.val * 128 + (y 2).val) :
    k0_pay1 (F := Ideal) (k0_pay4 (F := Ideal) (panel A0 b h) (panel A1 b h) (panel A2 b h) (panel A3 b h) (panel A4 b h)) y = G6 A0 A1 A2 A3 A4 k := by
  rw [eq_ix3 y]
  refine (pay1_apply _ (y 0) (y 1) (y 2)).trans ?_
  refine (pay4_apply _ _ _ _ _ (y 1) (y 2)).trans ?_
  unfold G6 outOf scoreOf
  have hy2 : (y 2).val < 128 := (y 2).isLt
  have e0 : (⟨(k 0).val, (k 0).isLt⟩ : Fin 2) = b := Fin.ext hk0
  have e1 : (⟨(k 1).val, (k 1).isLt⟩ : Fin 2048) = y 1 := Fin.ext hk1
  have e2 : (⟨(k 2).val / 128, by have h2 : (k 2).val < 2048 := (k 2).isLt; omega⟩ : Fin 16) = h := Fin.ext (by show (k 2).val / 128 = h.val; omega)
  have e3 : (⟨(k 2).val % 128, Nat.mod_lt _ (by decide)⟩ : Fin 128) = y 2 := Fin.ext (by show (k 2).val % 128 = (y 2).val; omega)
  rw [e0, e1, e2, e3]
  rfl

variable (m : (ℓ : Loc nD τ sig) → Buf (Elt Ideal) ℓ) (ρ : Dev nD → PrngReg)

/-- Input window 0's block at a point of batch `b` and head `h` is the (b, h) panel of its array. -/
theorem iblk0_eq (c : Dev nD) (t : Fin cfg0.N) (b : Fin 2) (h : Fin 16)
    (h0 : win0_0.index t (0 : Fin 3) = b.val) (h1 : win0_0.index t (1 : Fin 3) = 0) (h2 : win0_0.index t (2 : Fin 3) = h.val) :
    iblk m c 0 t = panel (V m c main_v5) b h := by
  funext y
  unfold iblk
  rw [View.read_apply]
  show V m c main_v5 _ = V m c main_v5 _
  refine congrArg (V m c main_v5) (funext fun a => Fin.ext ?_)
  have hy0 : (y 0).val < 1 := (y 0).isLt
  match a with
  | ⟨0, _⟩ => show win0_0.index t (0 : Fin 3) * 1 + 1 * (y 0).val = b.val; omega
  | ⟨1, _⟩ => show win0_0.index t (1 : Fin 3) * 2048 + 1 * (y 1).val = (y 1).val; omega
  | ⟨2, _⟩ => show win0_0.index t (2 : Fin 3) * 128 + 1 * (y 2).val = h.val * 128 + (y 2).val; omega

/-- Input window 1's block at a point of batch `b` and head `h` is the (b, h) panel of its array. -/
theorem iblk1_eq (c : Dev nD) (t : Fin cfg0.N) (b : Fin 2) (h : Fin 16)
    (h0 : win0_1.index t (0 : Fin 3) = b.val) (h1 : win0_1.index t (1 : Fin 3) = 0) (h2 : win0_1.index t (2 : Fin 3) = h.val) :
    iblk m c 1 t = panel (V m c main_v8) b h := by
  funext y
  unfold iblk
  rw [View.read_apply]
  show V m c main_v8 _ = V m c main_v8 _
  refine congrArg (V m c main_v8) (funext fun a => Fin.ext ?_)
  have hy0 : (y 0).val < 1 := (y 0).isLt
  match a with
  | ⟨0, _⟩ => show win0_1.index t (0 : Fin 3) * 1 + 1 * (y 0).val = b.val; omega
  | ⟨1, _⟩ => show win0_1.index t (1 : Fin 3) * 2048 + 1 * (y 1).val = (y 1).val; omega
  | ⟨2, _⟩ => show win0_1.index t (2 : Fin 3) * 128 + 1 * (y 2).val = h.val * 128 + (y 2).val; omega

/-- Input window 2's block at a point of batch `b` and head `h` is the (b, h) panel of its array. -/
theorem iblk2_eq (c : Dev nD) (t : Fin cfg0.N) (b : Fin 2) (h : Fin 16)
    (h0 : win0_2.index t (0 : Fin 3) = b.val) (h1 : win0_2.index t (1 : Fin 3) = 0) (h2 : win0_2.index t (2 : Fin 3) = h.val) :
    iblk m c 2 t = panel (V m c main_v9) b h := by
  funext y
  unfold iblk
  rw [View.read_apply]
  show V m c main_v9 _ = V m c main_v9 _
  refine congrArg (V m c main_v9) (funext fun a => Fin.ext ?_)
  have hy0 : (y 0).val < 1 := (y 0).isLt
  match a with
  | ⟨0, _⟩ => show win0_2.index t (0 : Fin 3) * 1 + 1 * (y 0).val = b.val; omega
  | ⟨1, _⟩ => show win0_2.index t (1 : Fin 3) * 2048 + 1 * (y 1).val = (y 1).val; omega
  | ⟨2, _⟩ => show win0_2.index t (2 : Fin 3) * 128 + 1 * (y 2).val = h.val * 128 + (y 2).val; omega

/-- Input window 3's block at a point of batch `b` and head `h` is the (b, h) panel of its array. -/
theorem iblk3_eq (c : Dev nD) (t : Fin cfg0.N) (b : Fin 2) (h : Fin 16)
    (h0 : win0_3.index t (0 : Fin 3) = b.val) (h1 : win0_3.index t (1 : Fin 3) = 0) (h2 : win0_3.index t (2 : Fin 3) = h.val) :
    iblk m c 3 t = panel (V m c main_v12) b h := by
  funext y
  unfold iblk
  rw [View.read_apply]
  show V m c main_v12 _ = V m c main_v12 _
  refine congrArg (V m c main_v12) (funext fun a => Fin.ext ?_)
  have hy0 : (y 0).val < 1 := (y 0).isLt
  match a with
  | ⟨0, _⟩ => show win0_3.index t (0 : Fin 3) * 1 + 1 * (y 0).val = b.val; omega
  | ⟨1, _⟩ => show win0_3.index t (1 : Fin 3) * 2048 + 1 * (y 1).val = (y 1).val; omega
  | ⟨2, _⟩ => show win0_3.index t (2 : Fin 3) * 128 + 1 * (y 2).val = h.val * 128 + (y 2).val; omega

/-- Input window 4's block at a point of batch `b` and head `h` is the (b, h) panel of its array. -/
theorem iblk4_eq (c : Dev nD) (t : Fin cfg0.N) (b : Fin 2) (h : Fin 16)
    (h0 : win0_4.index t (0 : Fin 3) = b.val) (h1 : win0_4.index t (1 : Fin 3) = 0) (h2 : win0_4.index t (2 : Fin 3) = h.val) :
    iblk m c 4 t = panel (V m c main_v4) b h := by
  funext y
  unfold iblk
  rw [View.read_apply]
  show V m c main_v4 _ = V m c main_v4 _
  refine congrArg (V m c main_v4) (funext fun a => Fin.ext ?_)
  have hy0 : (y 0).val < 1 := (y 0).isLt
  match a with
  | ⟨0, _⟩ => show win0_4.index t (0 : Fin 3) * 1 + 1 * (y 0).val = b.val; omega
  | ⟨1, _⟩ => show win0_4.index t (1 : Fin 3) * 2048 + 1 * (y 1).val = (y 1).val; omega
  | ⟨2, _⟩ => show win0_4.index t (2 : Fin 3) * 128 + 1 * (y 2).val = h.val * 128 + (y 2).val; omega

/-- The printed index maps, decided over the 32 grid points: every input window and the output window sit at block
    `(b, 0, h)` where the score window sits at block `(b, h, 0, 0)`. -/
theorem idx_facts : ∀ t : Fin cfg0.N,
    (win0_0.index t (0 : Fin 3) = win0_5.index t (0 : Fin 4) ∧ win0_0.index t (1 : Fin 3) = 0 ∧ win0_0.index t (2 : Fin 3) = win0_5.index t (1 : Fin 4))
    ∧ (win0_1.index t (0 : Fin 3) = win0_5.index t (0 : Fin 4) ∧ win0_1.index t (1 : Fin 3) = 0 ∧ win0_1.index t (2 : Fin 3) = win0_5.index t (1 : Fin 4))
    ∧ (win0_2.index t (0 : Fin 3) = win0_5.index t (0 : Fin 4) ∧ win0_2.index t (1 : Fin 3) = 0 ∧ win0_2.index t (2 : Fin 3) = win0_5.index t (1 : Fin 4))
    ∧ (win0_3.index t (0 : Fin 3) = win0_5.index t (0 : Fin 4) ∧ win0_3.index t (1 : Fin 3) = 0 ∧ win0_3.index t (2 : Fin 3) = win0_5.index t (1 : Fin 4))
    ∧ (win0_4.index t (0 : Fin 3) = win0_5.index t (0 : Fin 4) ∧ win0_4.index t (1 : Fin 3) = 0 ∧ win0_4.index t (2 : Fin 3) = win0_5.index t (1 : Fin 4))
    ∧ (win0_6.index t (0 : Fin 3) = win0_5.index t (0 : Fin 4) ∧ win0_6.index t (1 : Fin 3) = 0 ∧ win0_6.index t (2 : Fin 3) = win0_5.index t (1 : Fin 4))
    ∧ win0_5.index t (2 : Fin 4) = 0 ∧ win0_5.index t (3 : Fin 4) = 0
    ∧ win0_5.index t (0 : Fin 4) < 2 ∧ win0_5.index t (1 : Fin 4) < 16 :=
  (by decide +kernel : ∀ t : Fin grid0.N, _)

/-- Every (batch, head) pair is some grid point's. -/
theorem idx_onto : ∀ (b : Fin 2) (h : Fin 16), ∃ t : Fin cfg0.N, win0_5.index t (0 : Fin 4) = b.val ∧ win0_5.index t (1 : Fin 4) = h.val :=
  (by decide +kernel : ∀ (b : Fin 2) (h : Fin 16), ∃ t : Fin grid0.N, win0_5.index t (0 : Fin 4) = b.val ∧ win0_5.index t (1 : Fin 4) = h.val)

/-- What point `t` writes back to the score array is block `t` of `G5` of the window arrays as the region finds them. -/
theorem flushed_eq5 (c : Dev nD) (t : Fin cfg0.N) :
    (dats m 0 c).flushed 5 t = ((cfg0.win 5).blk t).view.read (Elt Ideal) (G5 (V m c main_v5) (V m c main_v8) (V m c main_v9) (V m c main_v12)) := by
  obtain ⟨⟨a0, a1, a2⟩, ⟨b0, b1, b2⟩, ⟨c0, c1, c2⟩, ⟨d0, d1, d2⟩, -, -, z2, z3, lb, lh⟩ := idx_facts t
  rw [Cert.KernelIdeal.Value.flushed5]
  unfold out0_5
  rw [View.canon_unit_zero hz4]
  simp only [View.ld_unit_zero (S := S1x2048x128) hz3]
  rw [iblk0_eq m c t ⟨_, lb⟩ ⟨_, lh⟩ a0 a1 a2, iblk1_eq m c t ⟨_, lb⟩ ⟨_, lh⟩ b0 b1 b2, iblk2_eq m c t ⟨_, lb⟩ ⟨_, lh⟩ c0 c1 c2, iblk3_eq m c t ⟨_, lb⟩ ⟨_, lh⟩ d0 d1 d2]
  funext y
  have hy0 : (y 0).val < 1 := (y 0).isLt
  have hy1 : (y 1).val < 1 := (y 1).isLt
  refine block5_eq _ _ _ _ ⟨_, lb⟩ ⟨_, lh⟩ y _ ?_ ?_ ?_ ?_
  · show win0_5.index t (0 : Fin 4) * 1 + 1 * (y 0).val = win0_5.index t (0 : Fin 4); omega
  · show win0_5.index t (1 : Fin 4) * 1 + 1 * (y 1).val = win0_5.index t (1 : Fin 4); omega
  · show win0_5.index t (2 : Fin 4) * 2048 + 1 * (y 2).val = (y 2).val; omega
  · show win0_5.index t (3 : Fin 4) * 2048 + 1 * (y 3).val = (y 3).val; omega

/-- What point `t` writes back to the output array is block `t` of `G6` of the window arrays as the region finds them. -/
theorem flushed_eq6 (c : Dev nD) (t : Fin cfg0.N) :
    (dats m 0 c).flushed 6 t = ((cfg0.win 6).blk t).view.read (Elt Ideal) (G6 (V m c main_v5) (V m c main_v8) (V m c main_v9) (V m c main_v12) (V m c main_v4)) := by
  obtain ⟨⟨a0, a1, a2⟩, ⟨b0, b1, b2⟩, ⟨c0, c1, c2⟩, ⟨d0, d1, d2⟩, ⟨e0, e1, e2⟩, ⟨f0, f1, f2⟩, z2, z3, lb, lh⟩ := idx_facts t
  rw [Cert.KernelIdeal.Value.flushed6]
  unfold out0_6
  rw [View.canon_unit_zero hz3]
  simp only [View.ld_unit_zero (S := S1x2048x128) hz3]
  rw [iblk0_eq m c t ⟨_, lb⟩ ⟨_, lh⟩ a0 a1 a2, iblk1_eq m c t ⟨_, lb⟩ ⟨_, lh⟩ b0 b1 b2, iblk2_eq m c t ⟨_, lb⟩ ⟨_, lh⟩ c0 c1 c2, iblk3_eq m c t ⟨_, lb⟩ ⟨_, lh⟩ d0 d1 d2, iblk4_eq m c t ⟨_, lb⟩ ⟨_, lh⟩ e0 e1 e2]
  funext y
  have hy0 : (y 0).val < 1 := (y 0).isLt
  refine block6_eq _ _ _ _ _ ⟨_, lb⟩ ⟨_, lh⟩ y _ ?_ ?_ ?_
  · show win0_6.index t (0 : Fin 3) * 1 + 1 * (y 0).val = win0_5.index t (0 : Fin 4); omega
  · show win0_6.index t (1 : Fin 3) * 2048 + 1 * (y 1).val = (y 1).val; omega
  · show win0_6.index t (2 : Fin 3) * 128 + 1 * (y 2).val = win0_5.index t (1 : Fin 4) * 128 + (y 2).val; omega

/-- An index of the score array is in point `t`'s block iff each coordinate is in the block's range on its axis. -/
theorem mem_blk5 (t : Fin cfg0.N) (i : S2x16x2048x2048.Idx) :
    i ∈ ((cfg0.win 5).blk t).view.set ↔ ∀ a : Fin 4, win0_5.index t a * S1x1x2048x2048.size a ≤ (i a).val ∧ (i a).val < win0_5.index t a * S1x1x2048x2048.size a + S1x1x2048x2048.size a := by
  show i ∈ ((View.whole main_v13_0).slice (win0_5.rect t)).set ↔ _
  rw [View.set_slice_whole, Rect.mem_set_unit]
  exact Iff.rfl

/-- An index of the output array is in point `t`'s block iff each coordinate is in the block's range on its axis. -/
theorem mem_blk6 (t : Fin cfg0.N) (i : S2x2048x2048.Idx) :
    i ∈ ((cfg0.win 6).blk t).view.set ↔ ∀ a : Fin 3, win0_6.index t a * S1x2048x128.size a ≤ (i a).val ∧ (i a).val < win0_6.index t a * S1x2048x128.size a + S1x2048x128.size a := by
  show i ∈ ((View.whole main_v13_1).slice (win0_6.rect t)).set ↔ _
  rw [View.set_slice_whole, Rect.mem_set_unit]
  exact Iff.rfl

/-- The score blocks cover the score array: index `(b, h, ·, ·)` is in the block of the point of batch `b`, head `h`. -/
theorem cover5 (i : S2x16x2048x2048.Idx) : ∃ t : Fin cfg0.N, (cfg0.win 5).flush t = true ∧ i ∈ ((cfg0.win 5).blk t).view.set := by
  obtain ⟨t, hb, hh⟩ := idx_onto ⟨(i 0).val, (i 0).isLt⟩ ⟨(i 1).val, (i 1).isLt⟩
  obtain ⟨-, -, -, -, -, -, z2, z3, -, -⟩ := idx_facts t
  have hi2 : (i 2).val < 2048 := (i 2).isLt
  have hi3 : (i 3).val < 2048 := (i 3).isLt
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; rw [hb]; show (i 0).val * 1 ≤ (i 0).val ∧ (i 0).val < (i 0).val * 1 + 1; omega
  | ⟨1, _⟩ => show win0_5.index t (1 : Fin 4) * 1 ≤ (i 1).val ∧ (i 1).val < win0_5.index t (1 : Fin 4) * 1 + 1; rw [hh]; show (i 1).val * 1 ≤ (i 1).val ∧ (i 1).val < (i 1).val * 1 + 1; omega
  | ⟨2, _⟩ => show win0_5.index t (2 : Fin 4) * 2048 ≤ (i 2).val ∧ (i 2).val < win0_5.index t (2 : Fin 4) * 2048 + 2048; omega
  | ⟨3, _⟩ => show win0_5.index t (3 : Fin 4) * 2048 ≤ (i 3).val ∧ (i 3).val < win0_5.index t (3 : Fin 4) * 2048 + 2048; omega

/-- The output blocks cover the output array: index `(b, ·, n)` is in the block of the point of batch `b`, head `n / 128`. -/
theorem cover6 (i : S2x2048x2048.Idx) : ∃ t : Fin cfg0.N, (cfg0.win 6).flush t = true ∧ i ∈ ((cfg0.win 6).blk t).view.set := by
  have hi1 : (i 1).val < 2048 := (i 1).isLt
  have hi2 : (i 2).val < 2048 := (i 2).isLt
  obtain ⟨t, hb, hh⟩ := idx_onto ⟨(i 0).val, (i 0).isLt⟩ ⟨(i 2).val / 128, by omega⟩
  obtain ⟨-, -, -, -, -, ⟨f0, f1, f2⟩, -, -, -, -⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; rw [f0, hb]; show (i 0).val * 1 ≤ (i 0).val ∧ (i 0).val < (i 0).val * 1 + 1; omega
  | ⟨1, _⟩ => show win0_6.index t (1 : Fin 3) * 2048 ≤ (i 1).val ∧ (i 1).val < win0_6.index t (1 : Fin 3) * 2048 + 2048; omega
  | ⟨2, _⟩ => show win0_6.index t (2 : Fin 3) * 128 ≤ (i 2).val ∧ (i 2).val < win0_6.index t (2 : Fin 3) * 128 + 128; rw [f2, hh]; show (i 2).val / 128 * 128 ≤ (i 2).val ∧ (i 2).val < (i 2).val / 128 * 128 + 128; omega

/-- The score array after the run. -/
theorem final5 (c : Dev nD) : (dats m 0 c).arrAt 5 cfg0.N = G5 (V m c main_v5) (V m c main_v8) (V m c main_v9) (V m c main_v12) :=
  (dats m 0 c).arrAt_eq_of_cover 5 _ (fun t _ => flushed_eq5 m c t) cover5

/-- The output array after the run. -/
theorem final6 (c : Dev nD) : (dats m 0 c).arrAt 6 cfg0.N = G6 (V m c main_v5) (V m c main_v8) (V m c main_v9) (V m c main_v12) (V m c main_v4) :=
  (dats m 0 c).arrAt_eq_of_cover 6 _ (fun t _ => flushed_eq6 m c t) cover6

end Cert.Attn

end
-- ==== Proof.HostPrefix.lean ====
/-
  The five arrays the kernel's windows read, as the host operations before the launch leave them.

  Each [2, 2048, 16, 128] input is viewed as [2, 2048, 2048] (head and feature merged).  The queries are multiplied by the
  scale constant; the scaled queries and the keys are each split into a leading part (a change of float format: the identity
  at the ideal values) and a remainder (the array minus its leading part: the array minus itself).  The values are only viewed.
-/
import proofs.«125984_g20246475833907_fold_wed_m_552_22_alg».proof.Proof.Gen.KernelIdeal.Frame
import proofs.«125984_g20246475833907_fold_wed_m_552_22_alg».proof.Proof.Spec
import Idealize.ShloMosaic.Lib.StableHlo.Run
import Idealize.ShloMosaic.Lib.Pipeline.Value
import Idealize.ShloMosaic.PureOps.Ideal

noncomputable section

namespace Cert.Attn

open Cert.KernelIdeal Cert.KernelIdeal.Gen Idealize.ShloMosaic Idealize.ShloMosaic.TcCoe Idealize.SL.Sem Idealize.ShloMosaic.StableHlo Idealize.ShloMosaic.ValueIdx

/-- The [2, 2048, 2048] view of an input. -/
def merged (x : Arr4) : S2x2048x2048.Idx → EReal := shapeCast S2x2048x2048 x shapeCasts_S2x2048x16x128_S2x2048x2048

/-- The scale constant as a [2, 2048, 2048] array. -/
def scaleArr : S2x2048x2048.Idx → EReal :=
  broadcastInDim S2x2048x2048 ![] bcast_S_S2x2048x2048 (constant (F := Ideal) S_ .f32 0x413504F3#32)

/-- The merged view at `(b, s, 128 h + d)` is the input at `(b, s, h, d)`. -/
theorem merged_apply (x : Arr4) (b : Fin 2) (s : Fin 2048) (h : Fin 16) (d : Fin 128) :
    merged x (flat b s h d) = x (ix4 b s h d) :=
  shapeCast_apply x _ _ _ (by
    have hb := b.isLt
    have hs := s.isLt
    have hh := h.isLt
    have hd := d.isLt
    rw [Shape.rowMajor_val_four, Shape.rowMajor_val_three]
    show ((b.val * 2048 + s.val) * 16 + h.val) * 128 + d.val = (b.val * 2048 + s.val) * 2048 + (h.val * 128 + d.val)
    omega)

theorem scaleArr_apply (i : S2x2048x2048.Idx) : scaleArr i = scale :=
  broadcastInDim_apply _ bcast_S_S2x2048x2048 _ i ix0 (fun a => a.elim0)

variable (m : (ℓ : Loc nD τ sig) → Buf (Elt Ideal) ℓ)

/-- The leading part of the scaled queries. -/
theorem V_qhi (c : Dev nD) : (V m c main_v5 : S2x2048x2048.Idx → EReal)
    = fun i => merged (m ((c : Thread nD τ).loc main_arg0)) i * scaleArr i := by
  dsimp only [V, hostOps0]; after_results; rfl

/-- The remainder of the scaled queries. -/
theorem V_qlo (c : Dev nD) : (V m c main_v8 : S2x2048x2048.Idx → EReal)
    = fun i => merged (m ((c : Thread nD τ).loc main_arg0)) i * scaleArr i - merged (m ((c : Thread nD τ).loc main_arg0)) i * scaleArr i := by
  dsimp only [V, hostOps0]; after_results; rfl

/-- The leading part of the keys. -/
theorem V_khi (c : Dev nD) : (V m c main_v9 : S2x2048x2048.Idx → EReal) = merged (m ((c : Thread nD τ).loc main_arg1)) := by
  dsimp only [V, hostOps0]; after_results; rfl

/-- The remainder of the keys. -/
theorem V_klo (c : Dev nD) : (V m c main_v12 : S2x2048x2048.Idx → EReal)
    = fun i => merged (m ((c : Thread nD τ).loc main_arg1)) i - merged (m ((c : Thread nD τ).loc main_arg1)) i := by
  dsimp only [V, hostOps0]; after_results; rfl

/-- The values. -/
theorem V_val (c : Dev nD) : (V m c main_v4 : S2x2048x2048.Idx → EReal) = merged (m ((c : Thread nD τ).loc main_arg2)) := by
  dsimp only [V, hostOps0]; after_results; rfl

end Cert.Attn

end
-- ==== Proof.KernelIsSpec.lean ====
/-
  The kernel's two result arrays are the specification's, when every input entry is a real.

  With real entries the remainders of the two splits are zero (a real minus itself), so the three-product score collapses to
  the single product of the scaled queries and the keys; the score row of a query position is then a row of reals, its maximum
  a real, the exponentials positive reals and their sum a positive real, and dividing the weighted sum of the values by that
  sum is the same as weighting the values by the normalised exponentials.
-/
import proofs.«125984_g20246475833907_fold_wed_m_552_22_alg».proof.Proof.Blocks
import proofs.«125984_g20246475833907_fold_wed_m_552_22_alg».proof.Proof.HostPrefix
import proofs.«125984_g20246475833907_fold_wed_m_552_22_alg».proof.Proof.SoftmaxLaw

noncomputable section

namespace Cert.Attn

open Cert.KernelIdeal Cert.KernelIdeal.Gen Idealize.ShloMosaic Idealize.ShloMosaic.TcCoe Idealize.SL.Sem Idealize.ShloMosaic.ValueIdx
open Idealize.ShloMosaic.Pipeline (Dat)

/-- The leading part of the scaled queries, the remainder of the scaled queries, and the remainder of the keys, as arrays. -/
def Qhi (q : Arr4) : S2x2048x2048.Idx → EReal := fun i => merged q i * scaleArr i
def Qlo (q : Arr4) : S2x2048x2048.Idx → EReal := fun i => merged q i * scaleArr i - merged q i * scaleArr i
def Klo (k : Arr4) : S2x2048x2048.Idx → EReal := fun i => merged k i - merged k i

theorem scale_real : IsReal scale := ofBits_scale_real

/-- With real entries the three-product score is the single product. -/
theorem scoreOf_spec (q k : Arr4) (hq : ∀ i, IsReal (q i)) (hk : ∀ i, IsReal (k i)) (b : Fin 2) (h : Fin 16) (r j : Fin 2048) :
    scoreOf (Qhi q) (Qlo q) (merged k) (Klo k) b h r j = X q k b h r j := by
  have hA : ∀ d : Fin 128, (panel (Qhi q) b h (ix3 (0 : Fin 1) r d) : EReal) = q (ix4 b r h d) * scale := fun d => by
    show merged q (flat b r h d) * scaleArr (flat b r h d) = _
    rw [merged_apply, scaleArr_apply]
  have hA' : ∀ d : Fin 128, (panel (Qlo q) b h (ix3 (0 : Fin 1) r d) : EReal) = q (ix4 b r h d) * scale - q (ix4 b r h d) * scale := fun d => by
    show merged q (flat b r h d) * scaleArr (flat b r h d) - merged q (flat b r h d) * scaleArr (flat b r h d) = _
    rw [merged_apply, scaleArr_apply]
  have hB : ∀ d : Fin 128, (panel (merged k) b h (ix3 (0 : Fin 1) j d) : EReal) = k (ix4 b j h d) := fun d => merged_apply k b j h d
  have hB' : ∀ d : Fin 128, (panel (Klo k) b h (ix3 (0 : Fin 1) j d) : EReal) = k (ix4 b j h d) - k (ix4 b j h d) := fun d => by
    show merged k (flat b j h d) - merged k (flat b j h d) = _
    rw [merged_apply]
  unfold scoreOf score3 X
  simp only [hA, hA', hB, hB']
  exact split_dot (fun d => q (ix4 b r h d) * scale) (fun d => k (ix4 b j h d)) (fun d => (hq _).mul scale_real) (fun d => hk _)

theorem X_real (q k : Arr4) (hq : ∀ i, IsReal (q i)) (hk : ∀ i, IsReal (k i)) (b : Fin 2) (h : Fin 16) (r j : Fin 2048) :
    IsReal (X q k b h r j) :=
  IsReal.sum _ _ fun d _ => ((hq _).mul scale_real).mul (hk _)

/-- On a row of reals against a column of reals, normalising last is normalising first. -/
theorem attnRow_eq_softRow (x w : Fin 2048 → EReal) (hx : ∀ j, IsReal (x j)) (hw : ∀ j, IsReal (w j)) : attnRow x w = softRow x w := by
  have hm : IsReal (rowMax x) := by
    unfold rowMax
    rw [ofBits_neg_inf]
    exact fold_max_real (by decide) x hx
  exact softmax_law (by decide) x w (rowMax x) hx hm hw

theorem G5_spec (q k : Arr4) (hq : ∀ i, IsReal (q i)) (hk : ∀ i, IsReal (k i)) :
    G5 (Qhi q) (Qlo q) (merged k) (Klo k) = Spec5 q k := by
  funext i
  unfold G5 Spec5
  rw [scoreOf_spec q k hq hk]

theorem G6_spec (q k v : Arr4) (hq : ∀ i, IsReal (q i)) (hk : ∀ i, IsReal (k i)) (hv : ∀ i, IsReal (v i)) :
    G6 (Qhi q) (Qlo q) (merged k) (Klo k) (merged v) = Spec6 q k v := by
  funext i
  unfold G6 outOf Spec6
  simp only [scoreOf_spec q k hq hk, merged_apply]
  exact attnRow_eq_softRow _ _ (fun j => X_real q k hq hk _ _ _ j) (fun j => hv _)

variable (m : (ℓ : Loc nD τ sig) → Buf (Elt Ideal) ℓ) (ρ : Dev nD → PrngReg)

/-- The kernel's run: under real inputs the output array ends at `Spec6` and the score array at `Spec5` of the inputs, the
    inputs unchanged. -/
theorem kernel_run
    (hq : ∀ c : Dev nD, ∀ i, IsReal ((m ((c : Thread nD τ).loc main_arg0) : Arr4) i))
    (hk : ∀ c : Dev nD, ∀ i, IsReal ((m ((c : Thread nD τ).loc main_arg1) : Arr4) i))
    (hv : ∀ c : Dev nD, ∀ i, IsReal ((m ((c : Thread nD τ).loc main_arg2) : Arr4) i)) :
    θ_run defs (onTc (τ := τ) (main (F := Ideal))) ⟨m, fun _ => 0, ρ⟩ fun r => ∀ c : Dev nD,
      r.2.mem ((c : Thread nD τ).loc main_v13_1) = Spec6 (m ((c : Thread nD τ).loc main_arg0)) (m ((c : Thread nD τ).loc main_arg1)) (m ((c : Thread nD τ).loc main_arg2))
      ∧ r.2.mem ((c : Thread nD τ).loc main_v13_0) = Spec5 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (Cert.KernelIdeal.Value.run_blocks m ρ)
  obtain ⟨h5, h6, ha0, ha1, ha2⟩ := h c
  refine ⟨?_, ?_, ha0, ha1, ha2⟩
  · refine h6.trans ((final6 m c).trans ?_)
    rw [V_qhi m c, V_qlo m c, V_khi m c, V_klo m c, V_val m c]
    exact G6_spec _ _ _ (hq c) (hk c) (hv c)
  · refine h5.trans ((final5 m c).trans ?_)
    rw [V_qhi m c, V_qlo m c, V_khi m c, V_klo m c]
    exact G5_spec _ _ (hq c) (hk c)

end Cert.Attn

end
-- ==== Proof.RefRead.lean ====
import proofs.«125984_g20246475833907_fold_wed_m_552_22_alg».proof.Proof.Gen.ReferenceIdeal.Read
import proofs.«125984_g20246475833907_fold_wed_m_552_22_alg».proof.Proof.Spec
import proofs.«125984_g20246475833907_fold_wed_m_552_22_alg».proof.Proof.SoftmaxLaw
import Idealize.ShloMosaic.PureOps.Reduce
noncomputable section
namespace Cert.Attn
open Cert.ReferenceIdeal Cert.ReferenceIdeal.Read Idealize.ShloMosaic Idealize.ShloMosaic.ValueIdx

/-! The reference program read one operation at a time, at indices given by their coordinates:
    its score array is the scaled dot product `X`, its running maximum the row maximum, and its
    second result the softmax of each score row applied to the values, normalised first. -/

/-- The score array at (b, h, r, j): the sum over the features of the scaled query entry at
    position r times the key entry at position j, both of head h. -/
theorem ref_X (q k : (⟨S2x2048x16x128, .f32⟩ : BufTy).Contents (Elt Ideal)) (b : Fin 2) (h : Fin 16) (r j : Fin 2048) :
    val_main_v5 (F := Ideal) q k (ix4 b h r j) = X q k b h r j := by
  rw [val_main_v5_apply]
  unfold X
  refine Finset.sum_congr rfl fun d _ => ?_
  rw [val_main_v2_apply, val_main_v0_apply, val_main_v1_apply, val_main_cst_apply, val_main_v4_apply]
  have e1 : idx_main_v0 (lidx_main_v5 (ix4 b h r j) d) = ix4 b r h d := funext fun a => Fin.ext (by
    match a with | ⟨0, _⟩ => rfl | ⟨1, _⟩ => rfl | ⟨2, _⟩ => rfl | ⟨3, _⟩ => rfl)
  have e2 : idx_main_v4 (ridx_main_v5 (ix4 b h r j) d) = ix4 b j h d := funext fun a => Fin.ext (by
    match a with | ⟨0, _⟩ => rfl | ⟨1, _⟩ => rfl | ⟨2, _⟩ => rfl | ⟨3, _⟩ => rfl)
  rw [e1, e2]
  rfl

/-- The first result is the absolute value of the score. -/
theorem ref_score (q k : (⟨S2x2048x16x128, .f32⟩ : BufTy).Contents (Elt Ideal)) : val_main_v6 (F := Ideal) q k = Spec5 q k := by
  funext i
  obtain ⟨b, h, r, j, rfl⟩ : ∃ (b : Fin 2) (h : Fin 16) (r j : Fin 2048), i = ix4 b h r j :=
    ⟨i 0, i 1, i 2, i 3, eq_ix4 i⟩
  rw [val_main_v6_apply, ref_X]
  rfl

/-- The index of the reduced array at (b, h, r) with coordinate k put back on the last axis. -/
private theorem lift_ix3 (hr : S2x16x2048x2048.Reduces [3] S2x16x2048) (b : Fin 2) (h : Fin 16) (r : Fin 2048)
    (j : Fin (S2x16x2048x2048.size 3)) :
    hr.lift (ix3 b h r) j = ix4 b h r (⟨j.val, j.isLt⟩ : Fin 2048) := funext fun c => Fin.ext (by
  match c with | ⟨0, _⟩ => rfl | ⟨1, _⟩ => rfl | ⟨2, _⟩ => rfl | ⟨3, _⟩ => rfl)

/-- The reduction by maximum over the last axis, at (b, h, r), is the running maximum of the
    score row from the initial value, the pattern of minus infinity. -/
private theorem ref_v7 (q k : (⟨S2x2048x16x128, .f32⟩ : BufTy).Contents (Elt Ideal)) (b : Fin 2) (h : Fin 16) (r : Fin 2048) :
    val_main_v7 (F := Ideal) q k (ix3 b h r)
      = (Finset.univ : Finset (Fin 2048)).fold max (Ideal.ofBits .f32 0xFF800000#32) (fun j => X q k b h r j) := by
  have hr : S2x16x2048x2048.Reduces [3] S2x16x2048 := by decide
  unfold val_main_v7
  refine (Host.reduce_eq_fold_single FloatOps.maximumf _ _ _ hr _ (ix3 b h r)).trans ?_
  have hf : (val_main_v5 (F := Ideal) q k ∘ hr.lift (ix3 b h r)) = fun j : Fin 2048 => X q k b h r j :=
    funext fun j => (congrArg (val_main_v5 (F := Ideal) q k) (lift_ix3 hr b h r j)).trans (ref_X q k b h r _)
  rw [hf]
  rfl

/-- The maximum the reference subtracts, at (b, h, r): the row maximum of the scores. -/
theorem ref_max (q k : (⟨S2x2048x16x128, .f32⟩ : BufTy).Contents (Elt Ideal)) (b : Fin 2) (h : Fin 16) (r : Fin 2048) :
    val_main_v9 (F := Ideal) q k (ix3 b h r) = rowMax (fun j => X q k b h r j) := by
  rw [val_main_v9_apply, val_main_v8_apply, val_main_cst_1_apply, ref_v7]
  exact max_bot_fold _ _

/-- The exponential of the shifted score at (b, h, r, j). -/
theorem ref_exp (q k : (⟨S2x2048x16x128, .f32⟩ : BufTy).Contents (Elt Ideal)) (b : Fin 2) (h : Fin 16) (r j : Fin 2048) :
    val_main_v13 (F := Ideal) q k (ix4 b h r j)
      = Ideal.exp (X q k b h r j - rowMax (fun j' => X q k b h r j')) := by
  have e : idx_main_v10 (idx_main_v11 (ix4 b h r j)) = ix3 b h r := funext fun a => Fin.ext (by
    match a with | ⟨0, _⟩ => rfl | ⟨1, _⟩ => rfl | ⟨2, _⟩ => rfl)
  rw [val_main_v13_apply, val_main_v12_apply, ref_X, val_main_v11_apply, val_main_v10_apply, e, ref_max]
  rfl

/-- The sum of the exponentials of row (b, h, r). -/
theorem ref_sum (q k : (⟨S2x2048x16x128, .f32⟩ : BufTy).Contents (Elt Ideal)) (b : Fin 2) (h : Fin 16) (r : Fin 2048) :
    val_main_v14 (F := Ideal) q k (ix3 b h r)
      = ∑ j : Fin 2048, Ideal.exp (X q k b h r j - rowMax (fun j' => X q k b h r j')) := by
  rw [val_main_v14_apply, val_main_cst_2_apply]
  refine (congrArg (· + _) Ideal.ofBits_zero_f32).trans ?_
  rw [zero_add]
  refine Finset.sum_congr rfl fun j _ => ?_
  have e : idx_main_v14 (ix3 b h r) j = ix4 b h r j := funext fun a => Fin.ext (by
    match a with | ⟨0, _⟩ => rfl | ⟨1, _⟩ => rfl | ⟨2, _⟩ => rfl | ⟨3, _⟩ => rfl)
  rw [e, ref_exp]

/-- The normalised weight at (b, h, r, j): the exponential over the sum of its row. -/
theorem ref_div (q k : (⟨S2x2048x16x128, .f32⟩ : BufTy).Contents (Elt Ideal)) (b : Fin 2) (h : Fin 16) (r j : Fin 2048) :
    val_main_v17 (F := Ideal) q k (ix4 b h r j)
      = Ideal.div (Ideal.exp (X q k b h r j - rowMax (fun j' => X q k b h r j')))
          (∑ j' : Fin 2048, Ideal.exp (X q k b h r j' - rowMax (fun j'' => X q k b h r j''))) := by
  have e : idx_main_v15 (idx_main_v16 (ix4 b h r j)) = ix3 b h r := funext fun a => Fin.ext (by
    match a with | ⟨0, _⟩ => rfl | ⟨1, _⟩ => rfl | ⟨2, _⟩ => rfl)
  rw [val_main_v17_apply, ref_exp, val_main_v16_apply, val_main_v15_apply, e, ref_sum]
  rfl

/-- The second product at (b, h, r, d): the softmax of score row (b, h, r) applied to feature d of
    the values of head h. -/
theorem ref_v18 (q k v : (⟨S2x2048x16x128, .f32⟩ : BufTy).Contents (Elt Ideal)) (b : Fin 2) (h : Fin 16) (r : Fin 2048) (d : Fin 128) :
    val_main_v18 (F := Ideal) q k v (ix4 b h r d)
      = softRow (fun j => X q k b h r j) (fun j => v (ix4 b j h d)) := by
  rw [val_main_v18_apply]
  unfold softRow
  refine Finset.sum_congr rfl fun j _ => ?_
  have e1 : lidx_main_v18 (ix4 b h r d) j = ix4 b h r j := funext fun a => Fin.ext (by
    match a with | ⟨0, _⟩ => rfl | ⟨1, _⟩ => rfl | ⟨2, _⟩ => rfl | ⟨3, _⟩ => rfl)
  have e2 : idx_main_v3 (ridx_main_v18 (ix4 b h r d) j) = ix4 b j h d := funext fun a => Fin.ext (by
    match a with | ⟨0, _⟩ => rfl | ⟨1, _⟩ => rfl | ⟨2, _⟩ => rfl | ⟨3, _⟩ => rfl)
  rw [e1, ref_div, val_main_v3_apply, e2]

/-- The second result: entry (b, s, n) is the softmax-weighted sum for head n / 128, feature n % 128. -/
theorem ref_out (q k v : (⟨S2x2048x16x128, .f32⟩ : BufTy).Contents (Elt Ideal)) : val_main_v20 (F := Ideal) q k v = Spec6 q k v := by
  funext i
  obtain ⟨b, s, n, rfl⟩ : ∃ (b : Fin 2) (s n : Fin 2048), i = ix3 b s n := ⟨i 0, i 1, i 2, eq_ix3 i⟩
  have hb : b.val < 2 := b.isLt
  have hs : s.val < 2048 := s.isLt
  have hn : n.val < 2048 := n.isLt
  have e : idx_main_v19 (idx_main_v20 (ix3 b s n))
      = ix4 b (⟨n.val / 128, by omega⟩ : Fin 16) s (⟨n.val % 128, by omega⟩ : Fin 128) :=
    funext fun a => Fin.ext (by
      match a with
      | ⟨0, _⟩ => show ((b.val * 2048 + s.val) * 2048 + n.val) / 4194304 = b.val; omega
      | ⟨1, _⟩ => show ((b.val * 2048 + s.val) * 2048 + n.val) / 128 % 16 = n.val / 128; omega
      | ⟨2, _⟩ => show ((b.val * 2048 + s.val) * 2048 + n.val) / 2048 % 2048 = s.val; omega
      | ⟨3, _⟩ => show ((b.val * 2048 + s.val) * 2048 + n.val) % 128 = n.val % 128; omega)
  rw [val_main_v20_apply, val_main_v19_apply, e, ref_v18]
  rfl

end Cert.Attn
end
-- ==== Proof.lean ====
/-
  Fused full attention against its plain reference, at the ideal values (floats as extended reals, operations exact).

  Inputs q, k, v of shape [2, 2048, 16, 128] (batch, position, head, feature).  Both programs compute, for every batch and head,
  the score panel  x = (q · c) kᵀ  over the 128 features (c the f32 nearest √128), return |x|, and return softmax(x) v with head
  and feature merged into one axis.  The kernel differs from the reference in three ways, none of which changes an exact value
  when the inputs are finite:
    · it splits the scaled queries and the keys into a leading bf16 part and a bf16 remainder and adds three products; exactly,
      the leading part is the array itself and the remainder is the array minus itself, which is zero on reals, so two of the
      three products vanish;
    · it divides by the softmax denominator AFTER multiplying the exponentials into the values, where the reference divides
      first; the denominator is a positive real (a sum of exponentials of reals), so division by it is multiplication by its
      reciprocal and moves across the finite sum;
    · it works one (batch, head) pair per grid point on [2048, 128] panels of the [2, 2048, 2048] merged views, where the
      reference transposes to [2, 16, 2048, 128]; the blocks tile the results.
  The precondition (every input entry of absolute value below plus infinity) is what makes the entries reals.

  Modules: Spec (the mathematics), SoftmaxLaw (the two laws on reals), Finite (the precondition gives reals), Payload (the body's
  arithmetic at an index), Blocks (blocks to arrays), HostPrefix (the arrays the windows read), KernelIsSpec (the kernel's run
  ends at the specification), RefRead (so does the reference's).
-/
import proofs.«125984_g20246475833907_fold_wed_m_552_22_alg».proof.Defs
import proofs.«125984_g20246475833907_fold_wed_m_552_22_alg».proof.Proof.Gen.Kernel
import proofs.«125984_g20246475833907_fold_wed_m_552_22_alg».proof.Proof.Gen.Kernel.Skeleton
import proofs.«125984_g20246475833907_fold_wed_m_552_22_alg».proof.Proof.Gen.Kernel.Launch
import proofs.«125984_g20246475833907_fold_wed_m_552_22_alg».proof.Proof.Gen.Kernel.Points
import proofs.«125984_g20246475833907_fold_wed_m_552_22_alg».proof.Proof.Gen.Kernel.Frame
import proofs.«125984_g20246475833907_fold_wed_m_552_22_alg».proof.Proof.Gen.KernelIdeal
import proofs.«125984_g20246475833907_fold_wed_m_552_22_alg».proof.Proof.Gen.KernelIdeal.Skeleton
import proofs.«125984_g20246475833907_fold_wed_m_552_22_alg».proof.Proof.Gen.KernelIdeal.Launch
import proofs.«125984_g20246475833907_fold_wed_m_552_22_alg».proof.Proof.Gen.KernelIdeal.Points
import proofs.«125984_g20246475833907_fold_wed_m_552_22_alg».proof.Proof.Gen.KernelIdeal.Frame
import proofs.«125984_g20246475833907_fold_wed_m_552_22_alg».proof.Proof.Gen.ReferenceIdeal
import proofs.«125984_g20246475833907_fold_wed_m_552_22_alg».proof.Proof.Gen.Pre_finite_inputs
import proofs.«125984_g20246475833907_fold_wed_m_552_22_alg».proof.Proof.Gen.KernelIdeal.Value
import proofs.«125984_g20246475833907_fold_wed_m_552_22_alg».proof.Proof.Gen.ReferenceIdeal.Run
import proofs.«125984_g20246475833907_fold_wed_m_552_22_alg».proof.Proof.Gen.ReferenceIdeal.Read
import proofs.«125984_g20246475833907_fold_wed_m_552_22_alg».proof.Proof.Finite
import proofs.«125984_g20246475833907_fold_wed_m_552_22_alg».proof.Proof.KernelIsSpec
import proofs.«125984_g20246475833907_fold_wed_m_552_22_alg».proof.Proof.RefRead
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as they were. -/
theorem frame_k : Cert.frame_Kernel := fun m ρ _ => Cert.Kernel.Gen.frame m ρ

/-- So does the kernel at the ideal values. -/
theorem frame_ki : Cert.frame_KernelIdeal := fun m ρ _ => Cert.KernelIdeal.Gen.frame m ρ

/-- So does the reference: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read at the ideal values: nothing was rewritten. -/
theorem preserves : Cert.preserves_Kernel_KernelIdeal := trivial

/-- Both programs end with the output at `Spec6` and the score at `Spec5` of the inputs. -/
theorem algebraic : Cert.algebraic_KernelIdeal_ReferenceIdeal := by
  intro m ρ m' ρ' hpre hagree
  have hreal := fun c : Dev Cert.KernelIdeal.nD => Cert.Attn.real_of_pre _ _ _ (hpre c)
  refine ⟨fun c => Cert.Attn.Spec6 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Attn.Spec5 (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.Attn.kernel_run m ρ (fun c => (hreal c).1) (fun c => (hreal c).2.1) (fun c => (hreal c).2.2), ?_⟩
  refine (θ_run Cert.ReferenceIdeal.defs _ _).mono (fun _ h c => ?_) (Cert.ReferenceIdeal.Value.run (F := Ideal) m' ρ')
  obtain ⟨h20, h6, ra0, ra1, ra2⟩ := h c
  obtain ⟨e0, e1, e2⟩ := hagree c
  refine ⟨h20.trans ?_, h6.trans ?_, ra0, ra1, ra2⟩
  · rw [Cert.ReferenceIdeal.Read.val_main_v20_eq, Cert.Attn.ref_out, e0, e1, e2]
  · rw [Cert.ReferenceIdeal.Read.val_main_v6_eq, Cert.Attn.ref_score, e0, e1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
